-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x8192 : Shape := ⟨3, ![64, 32, 8192]⟩
abbrev S64 : Shape := ⟨1, ![64]⟩
abbrev S_ : Shape := ⟨0, ![]⟩

class Facts : Prop where
  bcast_S_S64x32x8192 : S_.BroadcastsInDim S64x32x8192 (![] : Fin 0 → Fin S64x32x8192.rank)
  reducesTo_S64x32x8192_S_d0_1_2 : S64x32x8192.ReducesTo [0, 1, 2] S_
  h_S_ : 0 < S_.numel

variable [Facts]

def fn {F : FTy → Type} [FloatOps F] (main_arg0 : FVec F S64x32x8192 .f32) (main_arg1 : IVec S64 32) (main_arg2 : IVec S64x32x8192 1) : IVec S_ 1 :=
  let main_v0 : FVec F S64x32x8192 .f32 := Host.absf main_arg0
  let main_cst : FVec F S_ .f32 := constant S_ .f32 0x7F800000#32
  let main_v1 : FVec F S64x32x8192 .f32 := broadcastInDim S64x32x8192 ![] bcast_S_S64x32x8192 main_cst
  let main_v2 : IVec S64x32x8192 1 := cmpf .olt main_v0 main_v1
  let main_c : IVec S_ 1 := constantI S_ 1 1#1
  let main_v3 : IVec S_ 1 := (fun x v => Host.reduce IntOp.andi x v reducesTo_S64x32x8192_S_d0_1_2 h_S_) main_v2 main_c
  let main_cst_0 : FVec F S_ .f32 := constant S_ .f32 0xBF800000#32
  let main_v4 : FVec F S64x32x8192 .f32 := broadcastInDim S64x32x8192 ![] bcast_S_S64x32x8192 main_cst_0
  let main_v5 : IVec S64x32x8192 1 := cmpf .oge main_arg0 main_v4
  let main_c_1 : IVec S_ 1 := constantI S_ 1 1#1
  let main_v6 : IVec S_ 1 := (fun x v => Host.reduce IntOp.andi x v reducesTo_S64x32x8192_S_d0_1_2 h_S_) main_v5 main_c_1
  let main_v7 : IVec S_ 1 := andi main_v3 main_v6
  main_v7
-- ==== Kernel.lean ====
abbrev S64x32x8192 : Shape := ⟨3, ![64, 32, 8192]⟩
abbrev S64 : Shape := ⟨1, ![64]⟩
abbrev S64x32x29 : Shape := ⟨3, ![64, 32, 29]⟩
abbrev S8x32x8192 : Shape := ⟨3, ![8, 32, 8192]⟩
abbrev S8x32x29 : Shape := ⟨3, ![8, 32, 29]⟩
abbrev S8x32x1024 : Shape := ⟨3, ![8, 32, 1024]⟩
abbrev S8x32 : Shape := ⟨2, ![8, 32]⟩
abbrev S8x32x1 : Shape := ⟨3, ![8, 32, 1]⟩

abbrev nBuf : Space → Nat
  | .hbm => 5
  | .vmem => 6
  | .smem => 0
  | _ => 0

abbrev bufTy : (tb : Table) → Fin (tcTables nBuf tb) → BufTy
  | .hbm, ⟨0, _⟩ => ⟨S64x32x8192, .f32⟩
  | .hbm, ⟨1, _⟩ => ⟨S64, .i32⟩
  | .hbm, ⟨2, _⟩ => ⟨S64x32x8192, .i1⟩
  | .hbm, ⟨3, _⟩ => ⟨S64x32x8192, .i32⟩
  | .hbm, ⟨4, _⟩ => ⟨S64x32x29, .f32⟩
  | .local _ .vmem, ⟨0, _⟩ => ⟨S8x32x8192, .f32⟩
  | .local _ .vmem, ⟨1, _⟩ => ⟨S8x32x8192, .f32⟩
  | .local _ .vmem, ⟨2, _⟩ => ⟨S8x32x8192, .i32⟩
  | .local _ .vmem, ⟨3, _⟩ => ⟨S8x32x8192, .i32⟩
  | .local _ .vmem, ⟨4, _⟩ => ⟨S8x32x29, .f32⟩
  | .local _ .vmem, ⟨5, _⟩ => ⟨S8x32x29, .f32⟩
  | _, _ => ⟨S64x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c1024_i32 : BitVec 32 := 1024#32
  let v4 : BitVec 32 := Scalar.muli arg4 c1024_i32
  v4
def k0_off1 (k0_t1 : Fin k0_t1_loop.trips) : Fin 3 → Nat :=
  let c0_3 : Index := 0#32
  let c0_4 : Index := 0#32
  let c0_i32 : BitVec 32 := 0#32
  let c1_i32 : BitVec 32 := 1#32
  let arg4 : BitVec 32 := Scf.iv c0_i32 c1_i32 k0_t1
  let c1024_i32 : BitVec 32 := 1024#32
  let v4 : BitVec 32 := Scalar.muli arg4 c1024_i32
  let v5 : BitVec 32 := v4
  let v6 : Index := Scalar.indexCast v5
  ![0, 0, v6.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x29 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  natLt_1_32 : 1 < 32
  h_S8x32x1024 : 0 < S8x32x1024.numel
  reduces_S8x32x1024_S8x32 : S8x32x1024.Reduces [2] S8x32
  shapeCasts_S8x32_S8x32x1 : S8x32.ShapeCasts S8x32x1
  concatenates_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x1_S8x32x29_d2 : Shape.Concatenates [S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1, S8x32x1] S8x32x29 2
  inb_S8x32x29_S8x32x29_0_0_0 : ∀ a, (![0, 0, 0] : Fin 3 → Nat) a + S8x32x29.size a ≤ S8x32x29.size a
  h_S8x32x29 : 0 < S8x32x29.numel
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S8x32x1024.size a ≤ S8x32x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x8192.size a ≤ S64x32x8192.size a
  hwx0_0 : ∀ i : grid0.Coords, EltTy.bits .f32 = 32 ∨ (Rect.block (s := S64x32x8192) S8x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x8192.size a ≤ S64x32x8192.size a
  hwx0_1 : ∀ i : grid0.Coords, EltTy.bits .i32 = 32 ∨ (Rect.block (s := S64x32x8192) S8x32x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x29.size a ≤ S64x32x29.size a
  hwx0_2 : ∀ i : grid0.Coords, EltTy.bits .f32 = 32 ∨ (Rect.block (s := S64x32x29) S8x32x29.size (cc0_transform_2 i) (hinb0_2 i)).WholeWords (EltTy.packing .f32)

variable [Facts₀]

abbrev win0_0 : Pipeline.Window sig grid0 :=
  Pipeline.Window.ofSpec (Memref.whole main_arg0) S8x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x32x29.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x8192 : Shape := ⟨3, ![64, 32, 8192]⟩
abbrev S64 : Shape := ⟨1, ![64]⟩
abbrev S_ : Shape := ⟨0, ![]⟩
abbrev S64x1x1 : Shape := ⟨3, ![64, 1, 1]⟩
abbrev S32 : Shape := ⟨1, ![32]⟩
abbrev S1x32x1 : Shape := ⟨3, ![1, 32, 1]⟩
abbrev S64x32x29 : Shape := ⟨3, ![64, 32, 29]⟩
abbrev S64x32x8192x1 : Shape := ⟨4, ![64, 32, 8192, 1]⟩
abbrev S64x32x8192x3 : Shape := ⟨4, ![64, 32, 8192, 3]⟩

abbrev nBuf : Space → Nat
  | .hbm => 48
  | .vmem => 0
  | .smem => 0
  | _ => 0

abbrev bufTy : (tb : Table) → Fin (tcTables nBuf tb) → BufTy
  | .hbm, ⟨0, _⟩ => ⟨S64x32x8192, .f32⟩
  | .hbm, ⟨1, _⟩ => ⟨S64, .i32⟩
  | .hbm, ⟨2, _⟩ => ⟨S64x32x8192, .i1⟩
  | .hbm, ⟨3, _⟩ => ⟨S_, .f32⟩
  | .hbm, ⟨4, _⟩ => ⟨S64x32x8192, .f32⟩
  | .hbm, ⟨5, _⟩ => ⟨S64x32x8192, .f32⟩
  | .hbm, ⟨6, _⟩ => ⟨S_, .f32⟩
  | .hbm, ⟨7, _⟩ => ⟨S64x32x8192, .f32⟩
  | .hbm, ⟨8, _⟩ => ⟨S64x32x8192, .f32⟩
  | .hbm, ⟨9, _⟩ => ⟨S_, .f32⟩
  | .hbm, ⟨10, _⟩ => ⟨S64x32x8192, .f32⟩
  | .hbm, ⟨11, _⟩ => ⟨S64x32x8192, .f32⟩
  | .hbm, ⟨12, _⟩ => ⟨S64x32x8192, .i32⟩
  | .hbm, ⟨13, _⟩ => ⟨S64x32x8192, .f32⟩
  | .hbm, ⟨14, _⟩ => ⟨S64, .i32⟩
  | .hbm, ⟨15, _⟩ => ⟨S64x1x1, .i32⟩
  | .hbm, ⟨16, _⟩ => ⟨S32, .i32⟩
  | .hbm, ⟨17, _⟩ => ⟨S1x32x1, .i32⟩
  | .hbm, ⟨18, _⟩ => ⟨S_, .f32⟩
  | .hbm, ⟨19, _⟩ => ⟨S64x32x29, .f32⟩
  | .hbm, ⟨20, _⟩ => ⟨S_, .i32⟩
  | .hbm, ⟨21, _⟩ => ⟨S64x1x1, .i32⟩
  | .hbm, ⟨22, _⟩ => ⟨S64x1x1, .i1⟩
  | .hbm, ⟨23, _⟩ => ⟨S_, .i32⟩
  | .hbm, ⟨24, _⟩ => ⟨S64x1x1, .i32⟩
  | .hbm, ⟨25, _⟩ => ⟨S64x1x1, .i32⟩
  | .hbm, ⟨26, _⟩ => ⟨S64x1x1, .i32⟩
  | .hbm, ⟨27, _⟩ => ⟨S_, .i32⟩
  | .hbm, ⟨28, _⟩ => ⟨S1x32x1, .i32⟩
  | .hbm, ⟨29, _⟩ => ⟨S1x32x1, .i1⟩
  | .hbm, ⟨30, _⟩ => ⟨S_, .i32⟩
  | .hbm, ⟨31, _⟩ => ⟨S1x32x1, .i32⟩
  | .hbm, ⟨32, _⟩ => ⟨S1x32x1, .i32⟩
  | .hbm, ⟨33, _⟩ => ⟨S1x32x1, .i32⟩
  | .hbm, ⟨34, _⟩ => ⟨S_, .i32⟩
  | .hbm, ⟨35, _⟩ => ⟨S64x32x8192, .i32⟩
  | .hbm, ⟨36, _⟩ => ⟨S64x32x8192, .i1⟩
  | .hbm, ⟨37, _⟩ => ⟨S_, .i32⟩
  | .hbm, ⟨38, _⟩ => ⟨S64x32x8192, .i32⟩
  | .hbm, ⟨39, _⟩ => ⟨S64x32x8192, .i32⟩
  | .hbm, ⟨40, _⟩ => ⟨S64x32x8192, .i32⟩
  | .hbm, ⟨41, _⟩ => ⟨S64x32x8192, .i32⟩
  | .hbm, ⟨42, _⟩ => ⟨S64x32x8192, .i32⟩
  | .hbm, ⟨43, _⟩ => ⟨S64x32x8192x1, .i32⟩
  | .hbm, ⟨44, _⟩ => ⟨S64x32x8192x1, .i32⟩
  | .hbm, ⟨45, _⟩ => ⟨S64x32x8192x1, .i32⟩
  | .hbm, ⟨46, _⟩ => ⟨S64x32x8192x3, .i32⟩
  | .hbm, ⟨47, _⟩ => ⟨S64x32x29, .f32⟩
  | _, _ => ⟨S64x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_v23 : Ref sig .tc := ⟨.hbm, 35, rfl⟩
abbrev main_v24 : Ref sig .tc := ⟨.hbm, 36, rfl⟩
abbrev main_c_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S_S64x32x8192 : S_.BroadcastsInDim S64x32x8192 (![] : Fin 0 → Fin S64x32x8192.rank)
  bcast_S64_S64x1x1_0 : S64.BroadcastsInDim S64x1x1 (![0] : Fin 1 → Fin S64x1x1.rank)
  bcast_S32_S1x32x1_1 : S32.BroadcastsInDim S1x32x1 (![1] : Fin 1 → Fin S1x32x1.rank)
  bcast_S_S64x32x29 : S_.BroadcastsInDim S64x32x29 (![] : Fin 0 → Fin S64x32x29.rank)
  bcast_S_S64x1x1 : S_.BroadcastsInDim S64x1x1 (![] : Fin 0 → Fin S64x1x1.rank)
  bcast_S_S1x32x1 : S_.BroadcastsInDim S1x32x1 (![] : Fin 0 → Fin S1x32x1.rank)
  bcast_S64x1x1_S64x32x8192_0_1_2 : S64x1x1.BroadcastsInDim S64x32x8192 (![0, 1, 2] : Fin 3 → Fin S64x32x8192.rank)
  bcast_S1x32x1_S64x32x8192_0_1_2 : S1x32x1.BroadcastsInDim S64x32x8192 (![0, 1, 2] : Fin 3 → Fin S64x32x8192.rank)
  bcast_S64x32x8192_S64x32x8192x1_0_1_2 : S64x32x8192.BroadcastsInDim S64x32x8192x1 (![0, 1, 2] : Fin 3 → Fin S64x32x8192x1.rank)
  concatenates_S64x32x8192x1_S64x32x8192x1_S64x32x8192x1_S64x32x8192x3_d3 : Shape.Concatenates [S64x32x8192x1, S64x32x8192x1, S64x32x8192x1] S64x32x8192x3 3
  scatter_S64x32x29_S64x32x8192x3_S64x32x8192_n_012_012_3_wf : ScatterDims.WF S64x32x29 S64x32x8192x3 S64x32x8192 [] [0, 1, 2] [0, 1, 2] 3

variable [Facts₀]

def scatter_S64x32x29_S64x32x8192x3_S64x32x8192_n_012_012_3 : ScatterDims S64x32x29 S64x32x8192x3 S64x32x8192 where
  updateWindowDims := []
  insertedWindowDims := [0, 1, 2]
  scatterDimsToOperandDims := [0, 1, 2]
  indexVectorDim := 3
  wf := scatter_S64x32x29_S64x32x8192x3_S64x32x8192_n_012_012_3_wf

class Facts : Prop extends Facts₀ where

variable [Facts]
-- ==== Proof.KernelTrip.lean ====
/-
  What one pass of the kernel's chunk loop computes, and what the loop leaves in the output block.

  The body walks the last axis of its [8, 32, 8192] blocks in 8 chunks of 1024.  For a chunk it forms, entry by
  entry, the selected bin word (the bin of the similarity where the mask word is non-zero, the sentinel 29 where it
  is zero), then for each bin k = 0 … 28 the [8, 32] array of the counts of entries whose selected word is k, and
  sets these 29 arrays side by side as a [8, 32, 29] chunk histogram, which it adds to the carried histogram.
  `chunk` is that chunk histogram as one function of the two loaded chunks; a pass of the loop adds it to the
  carried value; the block stored after the loop is the carried value after the last pass.
-/
import proofs.«153554_j49108656062551_2_alg».proof.Proof.Gen.KernelIdeal.Value
import Idealize.ShloMosaic.Lib.Pipeline.Value

set_option maxRecDepth 16384

noncomputable section

namespace Cert.KernelIdeal.Hist

open Cert.KernelIdeal Cert.KernelIdeal.Gen Idealize.ShloMosaic Idealize.ShloMosaic.TcCoe Idealize.SL.Sem
open Idealize.ShloMosaic.Tactic

variable {F : FTy → Type} [FloatOps F]

/-- The chunk histogram: the 29 count arrays of one [8, 32, 1024] chunk of similarities `v7` and mask words `v9`,
    side by side along the last axis. -/
def chunk (v7 : Vec F S8x32x1024 .f32) (v9 : Vec F S8x32x1024 .i32) : FVec F S8x32x29 .f32 :=
  k0_pay2
    (k0_pay16 (k0_pay4 v7 v9))
    (k0_pay17 (k0_pay4 v7 v9))
    (k0_pay18 (k0_pay4 v7 v9))
    (k0_pay20 (k0_pay4 v7 v9) k0_pay19)
    (k0_pay21 (k0_pay4 v7 v9))
    (k0_pay22 (k0_pay4 v7 v9))
    (k0_pay23 (k0_pay4 v7 v9))
    (k0_pay24 (k0_pay4 v7 v9))
    (k0_pay25 (k0_pay4 v7 v9))
    (k0_pay26 (k0_pay4 v7 v9))
    (k0_pay27 (k0_pay4 v7 v9))
    (k0_pay29 (k0_pay28 (k0_pay4 v7 v9)))
    (k0_pay30 (k0_pay4 v7 v9))
    (k0_pay31 (k0_pay4 v7 v9))
    (k0_pay32 (k0_pay4 v7 v9))
    (k0_pay33 (k0_pay4 v7 v9))
    (k0_pay34 (k0_pay4 v7 v9))
    (k0_pay35 (k0_pay4 v7 v9))
    (k0_pay36 (k0_pay4 v7 v9))
    (k0_pay37 (k0_pay5 v7 v9))
    (k0_pay38 (k0_pay6 v7 v9))
    (k0_pay39 (k0_pay7 v7 v9))
    (k0_pay40 (k0_pay8 v7 v9))
    (k0_pay41 (k0_pay10 (k0_pay9 v7 v9)))
    (k0_pay42 (k0_pay11 (k0_pay4 v7 v9)))
    (k0_pay43 (k0_pay12 (k0_pay4 v7 v9)))
    (k0_pay44 (k0_pay13 (k0_pay4 v7 v9)))
    (k0_pay45 (k0_pay14 (k0_pay4 v7 v9)))
    (k0_pay46 (k0_pay15 (k0_pay4 v7 v9)))

/-- Chunk k of a staged block: the [8, 32, 1024] rectangle at offset 1024·k along the last axis. -/
abbrev chunkRect (k : Fin k0_t1_loop.trips) : Rect S8x32x8192 :=
  Rect.unit (s := S8x32x8192) (k0_off1 k) S8x32x1024.size (k0_off1_inb k)

/-- ONE PASS: the carried histogram plus the chunk histogram of chunk k of the two staged blocks. -/
theorem trip_eq (𝒱 : Variants) (c : Dev nD) (bd : Option 𝒱.V) (i : grid0.Coords)
    (arg1 : Memref sig .tc .vmem S8x32x8192 .f32) (harg1 : arg1.IsWhole)
    (arg2 : Memref sig .tc .vmem S8x32x8192 .i32) (harg2 : arg2.IsWhole)
    (arg3 : Memref sig .tc .vmem S8x32x29 .f32) (harg3 : arg3.IsWhole)
    (X_arg1 : BufTy.Contents (Elt F) arg1.view.ty) (X_arg2 : BufTy.Contents (Elt F) arg2.view.ty)
    (k : Fin k0_t1_loop.trips) (acc : FVec F S8x32x29 .f32) :
    tripR_k0_t1 (F := F) 𝒱 c bd i arg1 harg1 arg2 harg2 arg3 harg3 X_arg1 X_arg2 k acc
      = addf acc (chunk (View.readAt (Elt F) arg1.view (chunkRect k).toLoadRect X_arg1)
          (View.readAt (Elt F) arg2.view (chunkRect k).toLoadRect X_arg2)) := by
  unfold tripR_k0_t1 trip_k0_t1
  dsimp only
  sl_unfold_run_names
  rfl

/-- The offsets of the output block's one store are all zero. -/
theorem zero_offsets : (![0, 0, 0] : Fin S8x32x29.rank → ℕ) = fun _ => 0 := by
  funext a
  match a with
  | ⟨0, _⟩ => rfl
  | ⟨1, _⟩ => rfl
  | ⟨2, _⟩ => rfl

/-- THE STORED BLOCK: what the body leaves in the output's staging buffer is the carried histogram after the last
    pass, started from the zero histogram. -/
theorem out_eq (c : Dev nD) (i : grid0.Coords)
    (arg1 : Memref sig .tc .vmem S8x32x8192 .f32) (harg1 : arg1.IsWhole)
    (arg2 : Memref sig .tc .vmem S8x32x8192 .i32) (harg2 : arg2.IsWhole)
    (arg3 : Memref sig .tc .vmem S8x32x29 .f32) (harg3 : arg3.IsWhole)
    (x0 : Vec F S8x32x8192 .f32) (x1 : Vec F S8x32x8192 .i32) :
    out0_A_2 c i arg1 harg1 arg2 harg2 arg3 harg3 x0 x1
      = st_k0_t1 (F := F) Variants.none c none i arg1 harg1 arg2 harg2 arg3 harg3 (harg1.unread x0) (harg2.unread x1)
          (k0_pay1 (F := F)) k0_t1_loop.trips := by
  unfold out0_A_2
  rw [View.read_writes_eq_canon _ _ _ (cover0_A_2 c i arg1 harg1 arg2 harg2 arg3 harg3 x0 x1)]
  unfold kernelRun0_A
  dsimp only
  rw [View.canon_unit_zero zero_offsets]

end Cert.KernelIdeal.Hist

end
-- ==== Proof.HistSpec.lean ====
/-
  The masked histogram both programs compute, as one function of the similarities and the mask.

  A similarity x is sent to the bin word  bin(x) = trunc(((x + c) / 2) · 28)  (c the f32 number 1 + 84·2⁻²³ that
  1.00001 rounds to; truncation toward zero, clamped to the 32-bit signed range).  Entry (p, q, k) of the histogram
  counts the positions d of row (p, q) whose mask bit is set and whose bin word is k:
      H(p, q, k) = Σ_{d < 8192} [ mask(p, q, d) = 1  and  bin(x(p, q, d)) = k ].
  Here are the facts about single entries that the two sides use:
    • counting by a sentinel: the word "bin where the mask word is non-zero, else 29" equals k < 29 exactly when the
      mask bit is set and the bin is k — no condition on x;
    • for x ≥ −1 the bin word is non-negative as a signed integer (x + c > 0), so an index normalisation "add 29 to
      a negative index" leaves it alone;
    • a non-negative word read as a signed integer is k exactly when it is the word k.
-/
import Idealize.ShloMosaic.PureOps.Ideal
import Idealize.ShloMosaic.PureOps.Ideal.Laws
import Idealize.ShloMosaic.Lib.ValueIdx

noncomputable section

open scoped BigOperators

namespace Cert.Hist

open Idealize.ShloMosaic Idealize.ShloMosaic.ValueIdx

/-! ## The bin word -/

/-- The bin word of a similarity: ((x + c) / 2) · 28 truncated toward zero, as a 32-bit word. -/
def binWord (x : EReal) : BitVec 32 :=
  Ideal.fptosi 32 (Ideal.div (x + Ideal.ofBits .f32 0x3F800054#32) (Ideal.ofBits .f32 0x40000000#32)
    * Ideal.ofBits .f32 0x41E00000#32)

/-- The shift c is the real number 8388692 / 8388608 = 1 + 84·2⁻²³. -/
theorem shift_val : Ideal.ofBits .f32 0x3F800054#32 = (((8388692 : ℝ) / 8388608 : ℝ) : EReal) := by
  simp [Ideal.ofBits, Ideal.ieee, -EReal.coe_mul]; norm_num

/-- The divisor is 2. -/
theorem two_val : Ideal.ofBits .f32 0x40000000#32 = ((2 : ℝ) : EReal) := by
  simp [Ideal.ofBits, Ideal.ieee, -EReal.coe_mul]; norm_num

/-- The number of bins less one is 28. -/
theorem span_val : Ideal.ofBits .f32 0x41E00000#32 = ((28 : ℝ) : EReal) := by
  simp [Ideal.ofBits, Ideal.ieee, -EReal.coe_mul]; norm_num

/-- At a real similarity the bin word is the truncation of a real number. -/
theorem binWord_coe (r : ℝ) :
    binWord (r : EReal) = Ideal.fptosi 32 ((((r + 8388692 / 8388608) * (1 / 2)) * 28 : ℝ) : EReal) := by
  unfold binWord
  rw [shift_val, two_val, span_val, Ideal.div_coe (by norm_num : (2 : ℝ) ≠ 0), ← EReal.coe_add, ← EReal.coe_mul,
    ← EReal.coe_mul]

/-- The truncation of a non-negative real is a non-negative signed word. -/
theorem fptosi_nonneg (y : ℝ) (hy : 0 ≤ y) : 0 ≤ (Ideal.fptosi 32 (y : EReal)).toInt := by
  unfold Ideal.fptosi
  rw [Ideal.toIntClamped_coe, if_pos hy]
  have hf : (0 : ℤ) ≤ ⌊y⌋ := Int.floor_nonneg.mpr hy
  have h0 : (0 : ℤ) ≤ max (-((2 ^ (32 - 1) : ℕ) : ℤ)) (min (((2 ^ (32 - 1) : ℕ) : ℤ) - 1) ⌊y⌋) :=
    le_max_of_le_right (le_min (by norm_num) hf)
  have h1 : max (-((2 ^ (32 - 1) : ℕ) : ℤ)) (min (((2 ^ (32 - 1) : ℕ) : ℤ) - 1) ⌊y⌋) < 2 ^ (32 - 1) :=
    max_lt (by norm_num) (lt_of_le_of_lt (min_le_left _ _) (by norm_num))
  rw [BitVec.toInt_ofInt_eq_self (by norm_num) (le_trans (by norm_num) h0) h1]
  exact h0

/-- For a similarity x ≥ −1 the bin word is non-negative: x + c ≥ c − 1 > 0. -/
theorem binWord_nonneg (r : ℝ) (h : -1 ≤ r) : 0 ≤ (binWord (r : EReal)).toInt := by
  rw [binWord_coe]
  apply fptosi_nonneg
  have : 0 ≤ r + 8388692 / 8388608 := by linarith
  positivity

/-! ## Words read as signed integers -/

/-- A small natural number, as a 32-bit word read signed, is itself. -/
theorem toInt_ofNat_small (k : ℕ) (h : k < 2 ^ 31) : (BitVec.ofNat 32 k).toInt = (k : ℤ) := by
  rw [BitVec.toInt_eq_toNat_of_lt (by rw [BitVec.toNat_ofNat, Nat.mod_eq_of_lt (by omega)]; omega),
    BitVec.toNat_ofNat, Nat.mod_eq_of_lt (by omega)]

/-- A word read signed is k exactly when it is the word k. -/
theorem toInt_eq_iff (b : BitVec 32) (k : ℕ) (h : k < 2 ^ 31) : b.toInt = (k : ℤ) ↔ b = BitVec.ofNat 32 k := by
  rw [← toInt_ofNat_small k h]
  exact BitVec.toInt_inj

/-- "Add n to a negative index" leaves a non-negative word alone. -/
theorem wrap_nonneg (b n : BitVec 32) (hb : 0 ≤ b.toInt) :
    Scalar.select (IntOp.cmpi .slt b 0#32) (IntOp.addi b n) b = b := by
  have hs : b.slt 0#32 = false := by
    rw [BitVec.slt]
    simp only [BitVec.toInt_zero, decide_eq_false_iff_not, not_lt]
    exact hb
  show (if BitVec.ofBool (b.slt 0#32) = 1 then IntOp.addi b n else b) = b
  rw [hs]
  exact if_neg (by decide)

/-! ## Counting with a sentinel -/

/-- The selected word: the bin where the mask word is non-zero, the sentinel 29 where it is zero. -/
def selWord (x : EReal) (w : BitVec 32) : BitVec 32 :=
  Scalar.select (IntOp.cmpi .ne w 0#32) (binWord x) 29#32

/-- The comparison "a = kk" as an extended real: 1 or 0. -/
def ind (a kk : BitVec 32) : EReal := ((((IntOp.cmpi .eq a kk).setWidth 32).toInt : ℝ) : EReal)

theorem ind_eq (a kk : BitVec 32) : ind a kk = if a = kk then 1 else 0 := by
  unfold ind
  show (((((BitVec.ofBool (a == kk)).setWidth 32).toInt : ℝ)) : EReal) = _
  by_cases h : a = kk
  · rw [if_pos h, beq_iff_eq.mpr h]
    have e : ((BitVec.ofBool true).setWidth 32 : BitVec 32).toInt = 1 := by decide
    rw [e]; norm_num
  · rw [if_neg h, beq_eq_false_iff_ne.mpr h]
    have e : ((BitVec.ofBool false).setWidth 32 : BitVec 32).toInt = 0 := by decide
    rw [e]; norm_num

/-- A mask bit is 0 or 1. -/
theorem bit_cases (m1 : BitVec 1) : m1 = 0#1 ∨ m1 = 1#1 := by
  by_cases h : m1 = 1#1
  · exact Or.inr h
  · exact Or.inl (eq_zero_of_ne_one h)

/-- COUNTING BY THE SENTINEL: the selected word of (x, mask bit widened to a word) is k < 29 exactly when the bit is
    set and the bin is k. -/
theorem count_entry (x : EReal) (m1 : BitVec 1) (k : Fin 29) :
    ind (selWord x (m1.setWidth 32)) (BitVec.ofNat 32 k.val)
      = if m1 = 1#1 ∧ binWord x = BitVec.ofNat 32 k.val then 1 else 0 := by
  rw [ind_eq]
  rcases bit_cases m1 with rfl | rfl
  · have hs : selWord x ((0#1 : BitVec 1).setWidth 32) = 29#32 := by
      unfold selWord; rfl
    have hk : ¬ (29#32 : BitVec 32) = BitVec.ofNat 32 k.val := by
      intro e
      have := congrArg BitVec.toNat e
      rw [BitVec.toNat_ofNat, BitVec.toNat_ofNat, Nat.mod_eq_of_lt (by omega), Nat.mod_eq_of_lt (by have := k.isLt; omega)] at this
      have := k.isLt
      omega
    rw [hs, if_neg hk, if_neg (fun h => absurd h.1 (by decide))]
  · have hs : selWord x ((1#1 : BitVec 1).setWidth 32) = binWord x := by
      unfold selWord; rfl
    rw [hs]
    by_cases h : binWord x = BitVec.ofNat 32 k.val
    · rw [if_pos h, if_pos ⟨rfl, h⟩]
    · rw [if_neg h, if_neg (fun hh => h hh.2)]

/-- A mask bit as an extended real is 1 when set, 0 when clear. -/
theorem bit_val (m1 : BitVec 1) : (((m1.toNat : ℝ)) : EReal) = if m1 = 1#1 then 1 else 0 := by
  rcases bit_cases m1 with rfl | rfl
  · rw [if_neg (by decide)]; norm_num
  · rw [if_pos rfl]; norm_num

/-! ## The histogram -/

/-- Entry (p, q, k): the number of positions of row (p, q) with the mask bit set and bin word k. -/
def H (x : (⟨3, ![64, 32, 8192]⟩ : Shape).Idx → EReal) (mk : IVec ⟨3, ![64, 32, 8192]⟩ 1)
    (p : Fin 64) (q : Fin 32) (k : Fin 29) : EReal :=
  ∑ d : Fin 8192, if mk (ix3 p q d) = 1#1 ∧ binWord (x (ix3 p q d)) = BitVec.ofNat 32 k.val then (1 : EReal) else 0

/-- The histogram as an array [64, 32, 29]. -/
def G (x : (⟨3, ![64, 32, 8192]⟩ : Shape).Idx → EReal) (mk : IVec ⟨3, ![64, 32, 8192]⟩ 1) :
    (⟨3, ![64, 32, 29]⟩ : Shape).Idx → EReal :=
  fun i => H x mk (i 0) (i 1) (i 2)

end Cert.Hist

end
-- ==== Proof.LibLastAxis.lean ====
/-
  Three readings along the LAST axis of a rank-3 array [a, b, c], each at an entry written by its coordinates.

  * A sum over the last axis: the array [a, b] of the sums  Σ_{l < c} x(p, q, l).
  * A trailing unit axis added by a recast [a, b] → [a, b, 1]: entry (p, q, 0) is the matrix entry (p, q).
  * Unit-width slabs [a, b, 1] set side by side along the last axis into [a, b, K]: entry (p, q, j) of the result is
    entry (p, q, 0) of the j-th slab.  The slab is named by an equation  xs[j]? = some ⟨shape, x⟩,  which for a
    literal list and a literal j is decided by walking the list; that the j slabs before it have width one each is a
    sum over the literal prefix.
  Nothing here depends on what the entries are.
-/
import Idealize.ShloMosaic.Lib.ValueIdx
import Idealize.ShloMosaic.Lib.Pipeline.Value
import Idealize.ShloMosaic.PureOps.Ideal.Laws

noncomputable section

open scoped BigOperators

namespace Cert.LibLastAxis

open Idealize.ShloMosaic Idealize.ShloMosaic.ValueIdx

/-- Over a result entry (p, q), the source index with l inserted on the last axis is (p, q, l). -/
theorem lift_last {a b c : ℕ} (h : (⟨3, ![a, b, c]⟩ : Shape).Reduces [(2 : Fin 3)] ⟨2, ![a, b]⟩)
    (p : Fin a) (q : Fin b) (l : Fin c) : h.lift (ix2 p q) l = ix3 p q l := by
  funext d
  refine Fin.ext ?_
  match d with
  | ⟨0, _⟩ => rfl
  | ⟨1, _⟩ => rfl
  | ⟨2, _⟩ => rfl

/-- A sum over the last axis, on the extended reals, read at (p, q). -/
theorem laneSum_at {a b c : ℕ} (src : FVec Ideal ⟨3, ![a, b, c]⟩ .f32) (acc : BitVec 32)
    (h : (⟨3, ![a, b, c]⟩ : Shape).Reduces [(2 : Fin 3)] ⟨2, ![a, b]⟩) (hφ : FKind.Formats .f32)
    (hacc : acc = FKind.add.neutral .f32 hφ) (p : Fin a) (q : Fin b) :
    multiReduction .add [(2 : Fin 3)] ⟨2, ![a, b]⟩ src acc h hφ hacc (ix2 p q) = ∑ l : Fin c, src (ix3 p q l) := by
  rw [Ideal.multiReduction_add_single]
  exact Finset.sum_congr rfl fun l _ => congrArg src (lift_last h p q l)

variable {α : Type}

/-- A trailing unit axis added: entry (p, q, 0) of the recast is entry (p, q) of the matrix. -/
theorem addLast_at {a b : ℕ} (x : (⟨2, ![a, b]⟩ : Shape).Idx → α)
    (h : (⟨2, ![a, b]⟩ : Shape).ShapeCasts ⟨3, ![a, b, 1]⟩) (p : Fin a) (q : Fin b) :
    shapeCast ⟨3, ![a, b, 1]⟩ x h (ix3 p q (0 : Fin 1)) = x (ix2 p q) := by
  refine shapeCast_apply x h _ _ ?_
  rw [Shape.rowMajor_val_three, Shape.rowMajor_val_two]
  show p.val * b + q.val = (p.val * b + q.val) * 1 + 0
  omega

/-- The extents of the pieces along axis `ax` of the result, as the library's lemma sums them. -/
abbrev extents {t : Shape} (ax : Fin t.rank) (ss : List Shape) : List Nat :=
  ss.map fun s => if h : s.rank = t.rank then s.size (ax.cast h.symm) else 0

/-- Unit-width slabs side by side along the last axis: entry (p, q, j) is entry (p, q, 0) of the j-th slab. -/
theorem unitSlabs_at {a b K : ℕ} (xs : List ((s : Shape) × (s.Idx → α)))
    (h : Shape.Concatenates (xs.map (·.1)) ⟨3, ![a, b, K]⟩ (2 : Fin 3)) (p : Fin a) (q : Fin b) (j : Fin K)
    (x₁ : (⟨3, ![a, b, 1]⟩ : Shape).Idx → α) (hxk : xs[j.val]? = some ⟨⟨3, ![a, b, 1]⟩, x₁⟩)
    (hpre : (extents (t := ⟨3, ![a, b, K]⟩) (2 : Fin 3) ((xs.take j.val).map (·.1))).sum = j.val) :
    concatenate ⟨3, ![a, b, K]⟩ (2 : Fin 3) xs h (ix3 p q j) = x₁ (ix3 p q (0 : Fin 1)) := by
  obtain ⟨hk, hxk'⟩ := List.getElem?_eq_some_iff.mp hxk
  exact concatenate_apply_piece (t := ⟨3, ![a, b, K]⟩) (2 : Fin 3) xs h (ix3 p q j) j.val hk ⟨3, ![a, b, 1]⟩ x₁ hxk' rfl
    j.val hpre (ix3 p q (0 : Fin 1))
    (fun d hd => by
      match d with
      | ⟨0, _⟩ => rfl
      | ⟨1, _⟩ => rfl
      | ⟨2, _⟩ => exact absurd rfl hd) rfl

end Cert.LibLastAxis

end
-- ==== Proof.KernelChunk.lean ====
/-
  The chunk histogram read at an entry, on the extended reals.

  Entry (b, q, k) of the chunk histogram of a chunk (v7, v9) is the number of positions l < 1024 of row (b, q) of the
  chunk whose selected word — the bin of v7 where v9 is non-zero, else 29 — is k:  the k-th of the 29 unit-width slabs
  set side by side is the k-th count array with a trailing unit axis added, and a count array is the sum over the
  chunk's last axis of the comparisons "selected word = k" read as 1 or 0.
-/
import proofs.«153554_j49108656062551_2_alg».proof.Proof.KernelTrip
import proofs.«153554_j49108656062551_2_alg».proof.Proof.HistSpec
import proofs.«153554_j49108656062551_2_alg».proof.Proof.LibLastAxis

set_option maxRecDepth 16384

noncomputable section

open scoped BigOperators

namespace Cert.KernelIdeal.Hist

open Cert.KernelIdeal Cert.KernelIdeal.Gen Idealize.ShloMosaic Idealize.ShloMosaic.ValueIdx
open Cert.Hist Cert.LibLastAxis

/-- The selected words of a chunk, entry by entry. -/
theorem sel_at (v7 : Vec Ideal S8x32x1024 .f32) (v9 : Vec Ideal S8x32x1024 .i32) (j : S8x32x1024.Idx) :
    k0_pay4 (F := Ideal) v7 v9 j = selWord (v7 j) (v9 j) := rfl

/-- One count array at (b, q): the number of positions of row (b, q) whose word is kk. -/
theorem column_at (s : IVec S8x32x1024 32) (kk : BitVec 32) (b : Fin 8) (q : Fin 32) :
    multiReduction (F := Ideal) .add [2] S8x32
        (sitofp .f32 (extui 32 (cmpi .eq s (broadcast S8x32x1024 kk)) natLt_1_32))
        0x00000000#32 reduces_S8x32x1024_S8x32 (.inl rfl) rfl (ix2 b q)
      = ∑ l : Fin 1024, ind (s (ix3 b q l)) kk :=
  laneSum_at _ _ _ _ _ b q

set_option maxHeartbeats 2000000 in
/-- THE CHUNK HISTOGRAM AT (b, q, k): the count of the row's positions whose selected word is k. -/
theorem chunk_at (v7 : Vec Ideal S8x32x1024 .f32) (v9 : Vec Ideal S8x32x1024 .i32) (b : Fin 8) (q : Fin 32) (k : Fin 29) :
    chunk (F := Ideal) v7 v9 (ix3 b q k)
      = ∑ l : Fin 1024, ind (selWord (v7 (ix3 b q l)) (v9 (ix3 b q l))) (BitVec.ofNat 32 k.val) := by
  have hsel : ∀ l : Fin 1024, selWord (v7 (ix3 b q l)) (v9 (ix3 b q l)) = k0_pay4 (F := Ideal) v7 v9 (ix3 b q l) :=
    fun l => rfl
  simp only [hsel]
  unfold chunk k0_pay2 k0_pay37 k0_pay38 k0_pay39 k0_pay40 k0_pay41 k0_pay42 k0_pay43 k0_pay44 k0_pay45 k0_pay46
  match k with
  | ⟨0, _⟩ =>
    refine Eq.trans (unitSlabs_at _ _ b q (⟨0, by decide⟩ : Fin 29) _ rfl (by simp [extents])) ?_
    exact Eq.trans (addLast_at _ _ b q) (column_at _ _ b q)
  | ⟨1, _⟩ =>
    refine Eq.trans (unitSlabs_at _ _ b q (⟨1, by decide⟩ : Fin 29) _ rfl (by simp [extents])) ?_
    exact Eq.trans (addLast_at _ _ b q) (column_at _ _ b q)
  | ⟨2, _⟩ =>
    refine Eq.trans (unitSlabs_at _ _ b q (⟨2, by decide⟩ : Fin 29) _ rfl (by simp [extents])) ?_
    exact Eq.trans (addLast_at _ _ b q) (column_at _ _ b q)
  | ⟨3, _⟩ =>
    refine Eq.trans (unitSlabs_at _ _ b q (⟨3, by decide⟩ : Fin 29) _ rfl (by simp [extents])) ?_
    exact Eq.trans (addLast_at _ _ b q) (column_at _ _ b q)
  | ⟨4, _⟩ =>
    refine Eq.trans (unitSlabs_at _ _ b q (⟨4, by decide⟩ : Fin 29) _ rfl (by simp [extents])) ?_
    exact Eq.trans (addLast_at _ _ b q) (column_at _ _ b q)
  | ⟨5, _⟩ =>
    refine Eq.trans (unitSlabs_at _ _ b q (⟨5, by decide⟩ : Fin 29) _ rfl (by simp [extents])) ?_
    exact Eq.trans (addLast_at _ _ b q) (column_at _ _ b q)
  | ⟨6, _⟩ =>
    refine Eq.trans (unitSlabs_at _ _ b q (⟨6, by decide⟩ : Fin 29) _ rfl (by simp [extents])) ?_
    exact Eq.trans (addLast_at _ _ b q) (column_at _ _ b q)
  | ⟨7, _⟩ =>
    refine Eq.trans (unitSlabs_at _ _ b q (⟨7, by decide⟩ : Fin 29) _ rfl (by simp [extents])) ?_
    exact Eq.trans (addLast_at _ _ b q) (column_at _ _ b q)
  | ⟨8, _⟩ =>
    refine Eq.trans (unitSlabs_at _ _ b q (⟨8, by decide⟩ : Fin 29) _ rfl (by simp [extents])) ?_
    exact Eq.trans (addLast_at _ _ b q) (column_at _ _ b q)
  | ⟨9, _⟩ =>
    refine Eq.trans (unitSlabs_at _ _ b q (⟨9, by decide⟩ : Fin 29) _ rfl (by simp [extents])) ?_
    exact Eq.trans (addLast_at _ _ b q) (column_at _ _ b q)
  | ⟨10, _⟩ =>
    refine Eq.trans (unitSlabs_at _ _ b q (⟨10, by decide⟩ : Fin 29) _ rfl (by simp [extents])) ?_
    exact Eq.trans (addLast_at _ _ b q) (column_at _ _ b q)
  | ⟨11, _⟩ =>
    refine Eq.trans (unitSlabs_at _ _ b q (⟨11, by decide⟩ : Fin 29) _ rfl (by simp [extents])) ?_
    exact Eq.trans (addLast_at _ _ b q) (column_at _ _ b q)
  | ⟨12, _⟩ =>
    refine Eq.trans (unitSlabs_at _ _ b q (⟨12, by decide⟩ : Fin 29) _ rfl (by simp [extents])) ?_
    exact Eq.trans (addLast_at _ _ b q) (column_at _ _ b q)
  | ⟨13, _⟩ =>
    refine Eq.trans (unitSlabs_at _ _ b q (⟨13, by decide⟩ : Fin 29) _ rfl (by simp [extents])) ?_
    exact Eq.trans (addLast_at _ _ b q) (column_at _ _ b q)
  | ⟨14, _⟩ =>
    refine Eq.trans (unitSlabs_at _ _ b q (⟨14, by decide⟩ : Fin 29) _ rfl (by simp [extents])) ?_
    exact Eq.trans (addLast_at _ _ b q) (column_at _ _ b q)
  | ⟨15, _⟩ =>
    refine Eq.trans (unitSlabs_at _ _ b q (⟨15, by decide⟩ : Fin 29) _ rfl (by simp [extents])) ?_
    exact Eq.trans (addLast_at _ _ b q) (column_at _ _ b q)
  | ⟨16, _⟩ =>
    refine Eq.trans (unitSlabs_at _ _ b q (⟨16, by decide⟩ : Fin 29) _ rfl (by simp [extents])) ?_
    exact Eq.trans (addLast_at _ _ b q) (column_at _ _ b q)
  | ⟨17, _⟩ =>
    refine Eq.trans (unitSlabs_at _ _ b q (⟨17, by decide⟩ : Fin 29) _ rfl (by simp [extents])) ?_
    exact Eq.trans (addLast_at _ _ b q) (column_at _ _ b q)
  | ⟨18, _⟩ =>
    refine Eq.trans (unitSlabs_at _ _ b q (⟨18, by decide⟩ : Fin 29) _ rfl (by simp [extents])) ?_
    exact Eq.trans (addLast_at _ _ b q) (column_at _ _ b q)
  | ⟨19, _⟩ =>
    refine Eq.trans (unitSlabs_at _ _ b q (⟨19, by decide⟩ : Fin 29) _ rfl (by simp [extents])) ?_
    exact Eq.trans (addLast_at _ _ b q) (column_at _ _ b q)
  | ⟨20, _⟩ =>
    refine Eq.trans (unitSlabs_at _ _ b q (⟨20, by decide⟩ : Fin 29) _ rfl (by simp [extents])) ?_
    exact Eq.trans (addLast_at _ _ b q) (column_at _ _ b q)
  | ⟨21, _⟩ =>
    refine Eq.trans (unitSlabs_at _ _ b q (⟨21, by decide⟩ : Fin 29) _ rfl (by simp [extents])) ?_
    exact Eq.trans (addLast_at _ _ b q) (column_at _ _ b q)
  | ⟨22, _⟩ =>
    refine Eq.trans (unitSlabs_at _ _ b q (⟨22, by decide⟩ : Fin 29) _ rfl (by simp [extents])) ?_
    exact Eq.trans (addLast_at _ _ b q) (column_at _ _ b q)
  | ⟨23, _⟩ =>
    refine Eq.trans (unitSlabs_at _ _ b q (⟨23, by decide⟩ : Fin 29) _ rfl (by simp [extents])) ?_
    exact Eq.trans (addLast_at _ _ b q) (column_at _ _ b q)
  | ⟨24, _⟩ =>
    refine Eq.trans (unitSlabs_at _ _ b q (⟨24, by decide⟩ : Fin 29) _ rfl (by simp [extents])) ?_
    exact Eq.trans (addLast_at _ _ b q) (column_at _ _ b q)
  | ⟨25, _⟩ =>
    refine Eq.trans (unitSlabs_at _ _ b q (⟨25, by decide⟩ : Fin 29) _ rfl (by simp [extents])) ?_
    exact Eq.trans (addLast_at _ _ b q) (column_at _ _ b q)
  | ⟨26, _⟩ =>
    refine Eq.trans (unitSlabs_at _ _ b q (⟨26, by decide⟩ : Fin 29) _ rfl (by simp [extents])) ?_
    exact Eq.trans (addLast_at _ _ b q) (column_at _ _ b q)
  | ⟨27, _⟩ =>
    refine Eq.trans (unitSlabs_at _ _ b q (⟨27, by decide⟩ : Fin 29) _ rfl (by simp [extents])) ?_
    exact Eq.trans (addLast_at _ _ b q) (column_at _ _ b q)
  | ⟨28, _⟩ =>
    refine Eq.trans (unitSlabs_at _ _ b q (⟨28, by decide⟩ : Fin 29) _ rfl (by simp [extents])) ?_
    exact Eq.trans (addLast_at _ _ b q) (column_at _ _ b q)
  | ⟨n + 29, h⟩ => exact absurd h (by omega)

end Cert.KernelIdeal.Hist

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.KernelBlock.lean ====
/-
  The block the kernel's body stores, entry by entry, as a function of the two staged blocks.

  The carried histogram after n passes of the chunk loop holds, at (b, q, k), the number of positions d < 1024·n of row
  (b, q) of the staged blocks whose selected word is k: it starts at zero, and pass n adds the count over chunk n,
  whose position l is position 1024·n + l of the block.  After the 8 passes that is the count over the whole row,
  and that is what the body stores.
-/
import proofs.«153554_j49108656062551_2_alg».proof.Proof.KernelChunk
import proofs.«153554_j49108656062551_2_alg».proof.Proof.LibPrefixSum

set_option maxRecDepth 16384

noncomputable section

open scoped BigOperators

namespace Cert.KernelIdeal.Hist

open Cert.KernelIdeal Cert.KernelIdeal.Gen Idealize.ShloMosaic Idealize.ShloMosaic.ValueIdx
open Cert.Hist

/-- The loop makes 8 passes. -/
theorem trips_eq : k0_t1_loop.trips = 8 := by decide

/-- Position l of chunk k of a block is position 1024·k + l of the block. -/
theorem ld_chunk {Val : EltTy → Type} {e : EltTy} (X : S8x32x8192.Idx → Val e) (k : Fin k0_t1_loop.trips)
    (b : Fin 8) (q : Fin 32) (l : Fin 1024) (h : 1024 * k.val + l.val < 8192) :
    View.ld X (chunkRect k) (ix3 b q l) = X (ix3 b q ⟨1024 * k.val + l.val, h⟩) := by
  refine congrArg X (funext fun a => Fin.ext ?_)
  show (k0_off1 k) a + 1 * ((ix3 b q l : S8x32x1024.Idx) a).val = _
  rw [k0_off1_eq k]
  match a with
  | ⟨0, _⟩ => show 0 + 1 * b.val = b.val; omega
  | ⟨1, _⟩ => show 0 + 1 * q.val = q.val; omega
  | ⟨2, _⟩ => show 1024 * k.val + 1 * l.val = 1024 * k.val + l.val; omega

/-- Position d of row (b, q) counts for bin word kk when its selected word is kk (positions past the row count 0). -/
def term (x0 : Vec Ideal S8x32x8192 .f32) (x1 : Vec Ideal S8x32x8192 .i32) (b : Fin 8) (q : Fin 32) (kk : BitVec 32)
    (d : ℕ) : EReal :=
  if h : d < 8192 then ind (selWord (x0 (ix3 b q ⟨d, h⟩)) (x1 (ix3 b q ⟨d, h⟩))) kk else 0

section
variable (c : Dev nD) (i : grid0.Coords)
  (arg1 : Memref sig .tc .vmem S8x32x8192 .f32) (harg1 : arg1.IsWhole)
  (arg2 : Memref sig .tc .vmem S8x32x8192 .i32) (harg2 : arg2.IsWhole)
  (arg3 : Memref sig .tc .vmem S8x32x29 .f32) (harg3 : arg3.IsWhole)
  (x0 : Vec Ideal S8x32x8192 .f32) (x1 : Vec Ideal S8x32x8192 .i32)

/-- THE CARRIED HISTOGRAM after n passes: the count over the first 1024·n positions of each row. -/
theorem st_at (n : ℕ) (hn : n ≤ k0_t1_loop.trips) (b : Fin 8) (q : Fin 32) (k : Fin 29) :
    st_k0_t1 (F := Ideal) Variants.none c none i arg1 harg1 arg2 harg2 arg3 harg3 (harg1.unread x0) (harg2.unread x1)
        (k0_pay1 (F := Ideal)) n (ix3 b q k)
      = ∑ d ∈ Finset.range (n * 1024), term x0 x1 b q (BitVec.ofNat 32 k.val) d := by
  induction n with
  | zero =>
    rw [Nat.zero_mul, Finset.range_zero, Finset.sum_empty]
    show Ideal.ofBits .f32 0x00000000#32 = 0
    exact Ideal.ofBits_zero_f32
  | succ n ih =>
    have hlt : n < k0_t1_loop.trips := hn
    have h8 : n < 8 := by rw [← trips_eq]; exact hlt
    have hs := st_k0_t1_succ (F := Ideal) Variants.none c none i arg1 harg1 arg2 harg2 arg3 harg3 (harg1.unread x0)
      (harg2.unread x1) (k0_pay1 (F := Ideal)) (⟨n, hlt⟩ : Fin k0_t1_loop.trips)
    rw [hs, trip_eq, addf_apply, ih (Nat.le_of_lt hlt), chunk_at, LibPrefixSum.prefix_block]
    congr 1
    refine Finset.sum_congr rfl fun l _ => ?_
    have hd : n * 1024 + l.val < 8192 := by have := l.isLt; omega
    unfold term
    rw [dif_pos hd]
    rw [View.readAt_eq_ld, View.readAt_eq_ld, harg1.read_unread, harg2.read_unread]
    rw [ld_chunk x0 ⟨n, hlt⟩ b q l (by show 1024 * n + l.val < 8192; omega),
      ld_chunk x1 ⟨n, hlt⟩ b q l (by show 1024 * n + l.val < 8192; omega)]
    have e : (⟨1024 * n + l.val, by omega⟩ : Fin 8192) = ⟨n * 1024 + l.val, hd⟩ := Fin.ext (by show 1024 * n + l.val = n * 1024 + l.val; omega)
    rw [e]

/-- THE STORED BLOCK at (b, q, k): the number of positions of row (b, q) whose selected word is k. -/
theorem block_at (b : Fin 8) (q : Fin 32) (k : Fin 29) :
    out0_A_2 (F := Ideal) c i arg1 harg1 arg2 harg2 arg3 harg3 x0 x1 (ix3 b q k)
      = ∑ d : Fin 8192, ind (selWord (x0 (ix3 b q d)) (x1 (ix3 b q d))) (BitVec.ofNat 32 k.val) := by
  rw [out_eq, st_at c i arg1 harg1 arg2 harg2 arg3 harg3 x0 x1 k0_t1_loop.trips le_rfl b q k, trips_eq]
  show ∑ d ∈ Finset.range 8192, term x0 x1 b q (BitVec.ofNat 32 k.val) d = _
  rw [LibPrefixSum.prefix_all]
  exact Finset.sum_congr rfl fun d _ => dif_pos d.isLt

end

end Cert.KernelIdeal.Hist

end
-- ==== Proof.KernelValue.lean ====
/-
  The kernel's result array, as one function of the argument arrays.

  Grid point t stages rows 8t … 8t+7 of the similarities and of the mask words (the mask widened to 32-bit words by
  the one host operation before the call) and writes back the [8, 32, 29] histogram of those rows.  Entry (b, q, k) of
  what point t writes is entry (8t + b, q, k) of the whole-array count  KG : the number of positions d of row
  (8t + b, q) whose selected word is k.  The eight blocks tile the result array, so the array ends holding KG; and the
  selected word of (x, mask bit widened) is k < 29 exactly when the bit is set and the bin word of x is k, so KG of the
  widened mask is the histogram G of the mask.
-/
import proofs.«153554_j49108656062551_2_alg».proof.Proof.KernelBlock
import proofs.«153554_j49108656062551_2_alg».proof.Proof.Gen.KernelIdeal.Value
import Idealize.ShloMosaic.Lib.Pipeline.Value
import Idealize.ShloMosaic.Lib.StableHlo.Run

set_option maxRecDepth 16384

noncomputable section

open scoped BigOperators

namespace Cert.KernelIdeal.Hist

open Cert.KernelIdeal Cert.KernelIdeal.Gen Cert.KernelIdeal.Value Idealize.ShloMosaic Idealize.ShloMosaic.TcCoe
open Idealize.SL.Sem Idealize.ShloMosaic.ValueIdx Cert.Hist Idealize.ShloMosaic.StableHlo
open Idealize.ShloMosaic.Pipeline (Dat)

variable (m : (ℓ : Loc nD τ sig) → Buf (Elt Ideal) ℓ) (ρ : Dev nD → PrngReg)

/-- The whole-array count over similarities a0 and mask WORDS a1: entry (p, q, k) is the number of positions of row
    (p, q) whose selected word is k. -/
def KG (a0 : S64x32x8192.Idx → EReal) (a1 : IVec S64x32x8192 32) : S64x32x29.Idx → EReal :=
  fun i => ∑ d : Fin 8192, ind (selWord (a0 (ix3 (i 0) (i 1) d)) (a1 (ix3 (i 0) (i 1) d))) (BitVec.ofNat 32 (i 2).val)

/-- The printed index maps, decided over the 8 grid points: the two inputs' blocks move with the output's block along
    the first axis and sit at 0 on the other two. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 7 :=
  (by decide +kernel : ∀ t : Fin grid0.N, _)

/-- Every block row of the result is some point's. -/
theorem idx_onto : ∀ q0 : Fin 8, ∃ t : Fin cfg0.N, win0_2.index t = ![q0.val, 0, 0] :=
  (by decide +kernel : ∀ q0 : Fin 8, ∃ t : Fin grid0.N, win0_2.index t = ![q0.val, 0, 0])

/-- Position (b, q, d) of point t's block of similarities is the array's entry on the row that output entry
    (b, q, ·) of the point's block lies on. -/
theorem read0 (c : Dev nD) (t : Fin cfg0.N) (b : Fin 8) (q : Fin 32) (k : Fin 29) (d : Fin 8192) :
    iblk m c 0 t (ix3 b q d)
      = V m c main_arg0 (ix3 ((((cfg0.win 2).blk t).view.emb (ix3 b q k)) 0) ((((cfg0.win 2).blk t).view.emb (ix3 b q k)) 1) d) := by
  obtain ⟨e0, e1, e2, e3, e4, e5, e6, e7, e8⟩ := idx_facts t
  show V m c main_arg0 (((cfg0.win 0).blk t).view.emb (ix3 b q d)) = _
  refine congrArg (V m c main_arg0) (funext fun a => Fin.ext ?_)
  match a with
  | ⟨0, _⟩ => show win0_0.index t (0 : Fin 3) * 8 + 1 * b.val = win0_2.index t (0 : Fin 3) * 8 + 1 * b.val; omega
  | ⟨1, _⟩ => show win0_0.index t (1 : Fin 3) * 32 + 1 * q.val = win0_2.index t (1 : Fin 3) * 32 + 1 * q.val; omega
  | ⟨2, _⟩ => show win0_0.index t (2 : Fin 3) * 8192 + 1 * d.val = d.val; omega

/-- The same for the block of mask words. -/
theorem read1 (c : Dev nD) (t : Fin cfg0.N) (b : Fin 8) (q : Fin 32) (k : Fin 29) (d : Fin 8192) :
    iblk m c 1 t (ix3 b q d)
      = V m c main_v0 (ix3 ((((cfg0.win 2).blk t).view.emb (ix3 b q k)) 0) ((((cfg0.win 2).blk t).view.emb (ix3 b q k)) 1) d) := by
  obtain ⟨e0, e1, e2, e3, e4, e5, e6, e7, e8⟩ := idx_facts t
  show V m c main_v0 (((cfg0.win 1).blk t).view.emb (ix3 b q d)) = _
  refine congrArg (V m c main_v0) (funext fun a => Fin.ext ?_)
  match a with
  | ⟨0, _⟩ => show win0_1.index t (0 : Fin 3) * 8 + 1 * b.val = win0_2.index t (0 : Fin 3) * 8 + 1 * b.val; omega
  | ⟨1, _⟩ => show win0_1.index t (1 : Fin 3) * 32 + 1 * q.val = win0_2.index t (1 : Fin 3) * 32 + 1 * q.val; omega
  | ⟨2, _⟩ => show win0_1.index t (2 : Fin 3) * 8192 + 1 * d.val = d.val; omega

/-- WHAT POINT t WRITES BACK is block t of the whole-array count of the arrays as the region finds them. -/
theorem flushed_eq (c : Dev nD) (t : Fin cfg0.N) :
    (dats m 0 c).flushed 2 t = ((cfg0.win 2).blk t).view.read (Elt Ideal) (KG (V m c main_arg0) (V m c main_v0)) := by
  rw [Value.flushed2]
  unfold outsAt0
  funext j
  obtain ⟨b, q, k, rfl⟩ : ∃ (b : Fin 8) (q : Fin 32) (k : Fin 29), j = ix3 b q k := ⟨j 0, j 1, j 2, eq_ix3 j⟩
  obtain ⟨e0, e1, e2, e3, e4, e5, e6, e7, e8⟩ := idx_facts t
  show out0_A_2 c (grid0.coords t) (ms0_0 t) (hs0_0 t) (ms0_1 t) (hs0_1 t) (ms0_2 t) (hs0_2 t) (iblk m c 0 t) (iblk m c 1 t) (ix3 b q k)
      = KG (V m c main_arg0) (V m c main_v0) (((cfg0.win 2).blk t).view.emb (ix3 b q k))
  refine (block_at c (grid0.coords t) (ms0_0 t) (hs0_0 t) (ms0_1 t) (hs0_1 t) (ms0_2 t) (hs0_2 t) (iblk m c 0 t) (iblk m c 1 t) b q k).trans ?_
  unfold KG
  have hk : ((((cfg0.win 2).blk t).view.emb (ix3 b q k)) 2).val = k.val := by
    show win0_2.index t (2 : Fin 3) * 29 + 1 * k.val = k.val
    omega
  rw [hk]
  refine Finset.sum_congr rfl fun d _ => ?_
  rw [read0 m c t b q k d, read1 m c t b q k d]

/-- An index of the result array is in point t's block iff each coordinate is in the block's range on its axis. -/
theorem mem_blk (t : Fin cfg0.N) (i : S64x32x29.Idx) :
    i ∈ ((cfg0.win 2).blk t).view.set
      ↔ ∀ a : Fin 3, win0_2.index t a * S8x32x29.size a ≤ (i a).val ∧ (i a).val < win0_2.index t a * S8x32x29.size a + S8x32x29.size a := by
  show i ∈ ((View.whole main_v1).slice (win0_2.rect t)).set ↔ _
  rw [View.set_slice_whole, Rect.mem_set_unit]
  exact Iff.rfl

/-- The eight blocks cover the result array: row p lies in the block of point p / 8. -/
theorem cover (i : S64x32x29.Idx) : ∃ t : Fin cfg0.N, (cfg0.win 2).flush t = true ∧ i ∈ ((cfg0.win 2).blk t).view.set := by
  have hi0 : (i 0).val < 64 := (i 0).isLt
  have hi1 : (i 1).val < 32 := (i 1).isLt
  have hi2 : (i 2).val < 29 := (i 2).isLt
  obtain ⟨t, ht⟩ := idx_onto ⟨(i 0).val / 8, by omega⟩
  have q0 : win0_2.index t (0 : Fin 3) = (i 0).val / 8 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 32 ≤ (i 1).val ∧ (i 1).val < win0_2.index t (1 : Fin 3) * 32 + 32; omega
  | ⟨2, _⟩ => show win0_2.index t (2 : Fin 3) * 29 ≤ (i 2).val ∧ (i 2).val < win0_2.index t (2 : Fin 3) * 29 + 29; omega

/-- The region finds the mask widened to 32-bit words, entry by entry. -/
theorem mask_words (c : Dev nD) :
    (V m c main_v0 : S64x32x8192.Idx → BitVec 32) = extui 32 (m ((c : Thread nD τ).loc main_arg2)) natLt_1_32 := by
  dsimp only [Gen.V, Gen.hostOps0]
  after_results

/-- The count over the widened mask is the histogram of the mask. -/
theorem KG_eq_G (a0 : S64x32x8192.Idx → EReal) (mk : IVec S64x32x8192 1) :
    KG a0 (extui 32 mk natLt_1_32) = G a0 mk := by
  funext i
  unfold KG G H
  exact Finset.sum_congr rfl fun d _ => count_entry _ _ _

/-- THE RESULT ARRAY after the run is the histogram of the similarities and the mask as launched. -/
theorem final (c : Dev nD) :
    (dats m 0 c).arrAt 2 cfg0.N = G (m ((c : Thread nD τ).loc main_arg0)) (m ((c : Thread nD τ).loc main_arg2)) := by
  rw [(dats m 0 c).arrAt_eq_of_cover 2 (KG (V m c main_arg0) (V m c main_v0)) (fun t _ => flushed_eq m c t) cover]
  rw [mask_words m c, V_main_arg0 m c]
  exact KG_eq_G _ _

/-- The kernel's run with its result array stated: the histogram of the arguments, which end unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hist

end
-- ==== Proof.LibPointScatter.lean ====
/-
  A scatter that adds ONE number per update into a rank-3 array, read at an entry.

  `x.at[i0, i1, i2].add(u)` for an operand x : [N0, N1, N2], updates u : [E0, E1, E2] and an index array
  [E0, E1, E2, 3] whose last axis holds, for every update, the three words naming the entry it is added to: every
  operand axis is named by a word, no update has a window.  Update e lands on entry i exactly when its three words,
  read as signed integers, are the three coordinates of i; a word outside the operand's extent lands nowhere.  So
  entry i of the result is x(i) plus the sum of the updates whose three words are i's coordinates.
  Also: a sum over all [A, B, D] indices of a term that vanishes off the fibre (p, q, ·) is the sum over that fibre.
  The library states the scatter through lists of axes and list lookups; here the dimension numbers are fixed and the
  lookups are carried out once.  Nothing depends on a particular program.
-/
import Idealize.ShloMosaic.PureOps.Ideal
import Idealize.ShloMosaic.Lib.ValueIdx
import Idealize.ShloMosaic.Lib.Pipeline.Value

noncomputable section

open scoped BigOperators

namespace Cert.LibPointScatter

open Idealize.ShloMosaic Idealize.ShloMosaic.ValueIdx

/-! ## Sums over rank-3 indices -/

/-- A rank-3 index set is the product of its three coordinate ranges … -/
def idxEquiv3 {A B D : ℕ} : (⟨3, ![A, B, D]⟩ : Shape).Idx ≃ Fin A × Fin B × Fin D where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {A B D : ℕ} (f : (⟨3, ![A, B, D]⟩ : Shape).Idx → M) :
    ∑ i, f i = ∑ a : Fin A, ∑ b : Fin B, ∑ c : Fin D, f (ix3 a b c) := by
  rw [← Equiv.sum_comp (idxEquiv3 (A := A) (B := B) (D := D)).symm f, Fintype.sum_prod_type]
  refine Finset.sum_congr rfl fun a _ => ?_
  rw [Fintype.sum_prod_type]
  rfl

/-- A term that vanishes unless the first two coordinates are (p, q) sums to the sum over the fibre (p, q, ·). -/
theorem sum_fibre3 {M : Type*} [AddCommMonoid M] {A B D : ℕ} (p : Fin A) (q : Fin B)
    (f : (⟨3, ![A, B, D]⟩ : Shape).Idx → M) :
    ∑ e, (if (e 0).val = p.val ∧ (e 1).val = q.val then f e else 0) = ∑ d : Fin D, f (ix3 p q d) := by
  rw [sum_idx3]
  have hab : ∀ (a : Fin A) (b : Fin B),
      (∑ c : Fin D, if ((ix3 a b c : (⟨3, ![A, B, D]⟩ : Shape).Idx) 0).val = p.val
            ∧ ((ix3 a b c : (⟨3, ![A, B, D]⟩ : Shape).Idx) 1).val = q.val
          then f (ix3 a b c) else 0)
        = if a.val = p.val ∧ b.val = q.val then ∑ c : Fin D, f (ix3 a b c) else 0 := by
    intro a b
    by_cases h : a.val = p.val ∧ b.val = q.val
    · rw [if_pos h]; exact Finset.sum_congr rfl fun c _ => if_pos h
    · rw [if_neg h]; exact Finset.sum_eq_zero fun c _ => if_neg h
  simp only [hab]
  rw [Finset.sum_eq_single p (fun a _ ha => Finset.sum_eq_zero fun b _ => if_neg (fun h => ha (Fin.ext h.1)))
    (fun h => absurd (Finset.mem_univ p) h)]
  rw [Finset.sum_eq_single q (fun b _ hb => if_neg (fun h => hb (Fin.ext h.2))) (fun h => absurd (Finset.mem_univ q) h)]
  exact if_pos ⟨rfl, rfl⟩

/-! ## The index array assembled from one array of words per operand axis -/

variable {α : Type}

/-- The extents of the pieces along axis `ax` of the result, as the library's lemma sums them. -/
abbrev widths {t : Shape} (ax : Fin t.rank) (ss : List Shape) : List Nat :=
  ss.map fun s => if h : s.rank = t.rank then s.size (ax.cast h.symm) else 0

/-- Unit-width arrays [E0, E1, E2, 1] set side by side along the last axis into [E0, E1, E2, K]: entry (e0, e1, e2, j) of
    the result is entry (e0, e1, e2, 0) of the j-th piece.  The piece is named by an equation that walking the literal
    list decides; that the j pieces before it have width one each is a sum over the literal prefix. -/
theorem unitWords_at {E0 E1 E2 K : ℕ} (xs : List ((s : Shape) × (s.Idx → α)))
    (h : Shape.Concatenates (xs.map (·.1)) ⟨4, ![E0, E1, E2, K]⟩ (3 : Fin 4)) (e0 : Fin E0) (e1 : Fin E1) (e2 : Fin E2)
    (j : Fin K) (x₁ : (⟨4, ![E0, E1, E2, 1]⟩ : Shape).Idx → α)
    (hxk : xs[j.val]? = some ⟨⟨4, ![E0, E1, E2, 1]⟩, x₁⟩)
    (hpre : (widths (t := ⟨4, ![E0, E1, E2, K]⟩) (3 : Fin 4) ((xs.take j.val).map (·.1))).sum = j.val) :
    concatenate ⟨4, ![E0, E1, E2, K]⟩ (3 : Fin 4) xs h (ix4 e0 e1 e2 j) = x₁ (ix4 e0 e1 e2 (0 : Fin 1)) := by
  obtain ⟨hk, hxk'⟩ := List.getElem?_eq_some_iff.mp hxk
  exact concatenate_apply_piece (t := ⟨4, ![E0, E1, E2, K]⟩) (3 : Fin 4) xs h (ix4 e0 e1 e2 j) j.val hk
    ⟨4, ![E0, E1, E2, 1]⟩ x₁ hxk' rfl j.val hpre (ix4 e0 e1 e2 (0 : Fin 1))
    (fun d hd => by
      match d with
      | ⟨0, _⟩ => rfl
      | ⟨1, _⟩ => rfl
      | ⟨2, _⟩ => rfl
      | ⟨3, _⟩ => exact absurd rfl hd) rfl

/-! ## The scatter's dimension numbers, looked up once -/

/-- The dimension numbers of `x.at[i0, i1, i2].add(u)`: no update window axis, every operand axis inserted and named
    by the word in its position of the index vector, which lies on the index array's last axis. -/
abbrev pointDims (N0 N1 N2 E0 E1 E2 : ℕ)
    (wf : ScatterDims.WF ⟨3, ![N0, N1, N2]⟩ ⟨4, ![E0, E1, E2, 3]⟩ ⟨3, ![E0, E1, E2]⟩ [] [0, 1, 2] [0, 1, 2] 3) :
    ScatterDims ⟨3, ![N0, N1, N2]⟩ ⟨4, ![E0, E1, E2, 3]⟩ ⟨3, ![E0, E1, E2]⟩ where
  updateWindowDims := []
  insertedWindowDims := [0, 1, 2]
  scatterDimsToOperandDims := [0, 1, 2]
  indexVectorDim := 3
  wf := wf

section
variable {N0 N1 N2 E0 E1 E2 w : ℕ}
  (wf : ScatterDims.WF ⟨3, ![N0, N1, N2]⟩ ⟨4, ![E0, E1, E2, 3]⟩ ⟨3, ![E0, E1, E2]⟩ [] [0, 1, 2] [0, 1, 2] 3)

/-- Update (e0, e1, e2) reads component c of its index vector at [e0, e1, e2, c]. -/
theorem point_siIdx (e0 : Fin E0) (e1 : Fin E1) (e2 : Fin E2)
    (c : Fin (pointDims N0 N1 N2 E0 E1 E2 wf).scatterDimsToOperandDims.length) :
    (pointDims N0 N1 N2 E0 E1 E2 wf).siIdx (ix3 e0 e1 e2) c = ix4 e0 e1 e2 (⟨c.val, c.isLt⟩ : Fin 3) := by
  funext b; refine Fin.ext ?_
  match b with
  | ⟨0, _⟩ => rfl
  | ⟨1, _⟩ => rfl
  | ⟨2, _⟩ => rfl
  | ⟨3, _⟩ => rfl

/-- On operand axis a the update starts at its a-th word, read signed and not clamped. -/
theorem point_start (idx : IVec ⟨4, ![E0, E1, E2, 3]⟩ w) (e0 : Fin E0) (e1 : Fin E1) (e2 : Fin E2) (a : Fin 3) :
    (pointDims N0 N1 N2 E0 E1 E2 wf).start (ix3 e0 e1 e2) idx a = (idx (ix4 e0 e1 e2 a)).toInt := by
  unfold ScatterDims.start
  match a with
  | ⟨0, _⟩ =>
    rw [dif_pos (show (⟨0, by decide⟩ : Fin 3) ∈ ([0, 1, 2] : List (Fin 3)) from by decide)]
    rw [point_siIdx]; rfl
  | ⟨1, _⟩ =>
    rw [dif_pos (show (⟨1, by decide⟩ : Fin 3) ∈ ([0, 1, 2] : List (Fin 3)) from by decide)]
    rw [point_siIdx]; rfl
  | ⟨2, _⟩ =>
    rw [dif_pos (show (⟨2, by decide⟩ : Fin 3) ∈ ([0, 1, 2] : List (Fin 3)) from by decide)]
    rw [point_siIdx]; rfl

/-- No operand axis is kept: every one is an inserted window axis. -/
theorem point_not_mem_sKept (a : Fin 3) : a ∉ (pointDims N0 N1 N2 E0 E1 E2 wf).sKept := by
  intro h
  have h2 : a ∉ ([0, 1, 2] : List (Fin 3)) := by
    simpa [ScatterDims.sKept, Shape.kept, List.mem_filter] using h
  have v0 : a.val ≠ 0 := fun e => h2 ((Fin.ext e : a = 0) ▸ (by decide : (0 : Fin 3) ∈ ([0, 1, 2] : List (Fin 3))))
  have v1 : a.val ≠ 1 := fun e => h2 ((Fin.ext e : a = 1) ▸ (by decide : (1 : Fin 3) ∈ ([0, 1, 2] : List (Fin 3))))
  have v2 : a.val ≠ 2 := fun e => h2 ((Fin.ext e : a = 2) ▸ (by decide : (2 : Fin 3) ∈ ([0, 1, 2] : List (Fin 3))))
  have := a.isLt
  omega

/-- So the window coordinate is 0 on every axis. -/
theorem point_window (e : (⟨3, ![E0, E1, E2]⟩ : Shape).Idx) (a : Fin 3) :
    (pointDims N0 N1 N2 E0 E1 E2 wf).window e a = 0 := by
  unfold ScatterDims.window
  rw [dif_neg (point_not_mem_sKept wf a)]

/-- WHERE UPDATE (e0, e1, e2) LANDS: on entry i exactly when its three words, read signed, are i's coordinates. -/
theorem point_resultIdx_iff (idx : IVec ⟨4, ![E0, E1, E2, 3]⟩ w) (e0 : Fin E0) (e1 : Fin E1) (e2 : Fin E2)
    (i : (⟨3, ![N0, N1, N2]⟩ : Shape).Idx) :
    (pointDims N0 N1 N2 E0 E1 E2 wf).resultIdx? (ix3 e0 e1 e2) idx = some i
      ↔ ∀ a : Fin 3, (idx (ix4 e0 e1 e2 a)).toInt = ((i a).val : ℤ) := by
  have hs : ∀ a : Fin 3, (pointDims N0 N1 N2 E0 E1 E2 wf).start (ix3 e0 e1 e2) idx a
      + ((pointDims N0 N1 N2 E0 E1 E2 wf).window (ix3 e0 e1 e2) a : ℤ) = (idx (ix4 e0 e1 e2 a)).toInt := fun a => by
    rw [point_start, point_window]; simp
  unfold ScatterDims.resultIdx?
  constructor
  · intro h a
    split at h
    · rename_i hall
      have hi := congrFun (Option.some.inj h) a
      have hb := hall a
      rw [hs a] at hb
      rw [← hi]
      show (idx (ix4 e0 e1 e2 a)).toInt = (((pointDims N0 N1 N2 E0 E1 E2 wf).start (ix3 e0 e1 e2) idx a
        + ((pointDims N0 N1 N2 E0 E1 E2 wf).window (ix3 e0 e1 e2) a : ℤ)).toNat : ℤ)
      rw [hs a]
      omega
    · exact absurd h (by simp)
  · intro h
    have hall : ∀ a : Fin 3, 0 ≤ (pointDims N0 N1 N2 E0 E1 E2 wf).start (ix3 e0 e1 e2) idx a
          + ((pointDims N0 N1 N2 E0 E1 E2 wf).window (ix3 e0 e1 e2) a : ℤ)
        ∧ (pointDims N0 N1 N2 E0 E1 E2 wf).start (ix3 e0 e1 e2) idx a
          + ((pointDims N0 N1 N2 E0 E1 E2 wf).window (ix3 e0 e1 e2) a : ℤ) < ((⟨3, ![N0, N1, N2]⟩ : Shape).size a : ℤ) := fun a => by
      rw [hs a, h a]
      exact ⟨by omega, by exact_mod_cast (i a).isLt⟩
    rw [dif_pos hall]
    congr 1
    funext a
    refine Fin.ext ?_
    show ((pointDims N0 N1 N2 E0 E1 E2 wf).start (ix3 e0 e1 e2) idx a
        + ((pointDims N0 N1 N2 E0 E1 E2 wf).window (ix3 e0 e1 e2) a : ℤ)).toNat = (i a).val
    rw [hs a, h a]
    simp

/-- THE SCATTER-ADD READ AT i: the operand's entry plus the sum of the updates whose three words are i's coordinates. -/
theorem pointScatterAdd_at (x : (⟨3, ![N0, N1, N2]⟩ : Shape).Idx → EReal) (idx : IVec ⟨4, ![E0, E1, E2, 3]⟩ w)
    (upd : (⟨3, ![E0, E1, E2]⟩ : Shape).Idx → EReal) (i : (⟨3, ![N0, N1, N2]⟩ : Shape).Idx) :
    Ideal.hostScatterAdd (pointDims N0 N1 N2 E0 E1 E2 wf) x idx upd i
      = x i + ∑ e : (⟨3, ![E0, E1, E2]⟩ : Shape).Idx,
          (if ∀ a : Fin 3, (idx (ix4 (e 0) (e 1) (e 2) a)).toInt = ((i a).val : ℤ) then upd e else 0) := by
  unfold Ideal.hostScatterAdd
  congr 1
  rw [Finset.sum_filter]
  refine Finset.sum_congr rfl fun e _ => ?_
  obtain ⟨e0, e1, e2, rfl⟩ : ∃ (e0 : Fin E0) (e1 : Fin E1) (e2 : Fin E2), e = ix3 e0 e1 e2 := ⟨e 0, e 1, e 2, eq_ix3 e⟩
  exact if_congr (point_resultIdx_iff wf idx e0 e1 e2 i) rfl rfl

end

end Cert.LibPointScatter

end
-- ==== Proof.RefValue.lean ====
/-
  The reference's result is the masked histogram, for similarities ≥ −1.

  The reference adds each mask bit (as 0.0 or 1.0) into a zero array [64, 32, 29] at the entry named by three words:
  the row b, the column q — each passed through "add the extent to a negative index", which leaves 0 … 63 and
  0 … 31 alone — and the bin word of the similarity, passed through "add 29 to a negative index".  For a similarity
  ≥ −1 the bin word is non-negative, so that normalisation leaves it alone too, and update (b, q, d) lands on entry
  (p, q', k) exactly when b = p, q = q' and the bin word is k.  The sum of the updates landing on (p, q, k) is
  therefore the sum over the positions d of row (p, q) of the mask bit where the bin is k: the histogram entry.
-/
import proofs.«153554_j49108656062551_2_alg».proof.Proof.Gen.ReferenceIdeal.Read
import proofs.«153554_j49108656062551_2_alg».proof.Proof.HistSpec
import proofs.«153554_j49108656062551_2_alg».proof.Proof.LibPointScatter

set_option maxRecDepth 16384

noncomputable section

open scoped BigOperators

namespace Cert.ReferenceIdeal.Hist

open Cert.ReferenceIdeal Cert.ReferenceIdeal.Gen Cert.ReferenceIdeal.Read Idealize.ShloMosaic
open Idealize.ShloMosaic.ValueIdx Cert.Hist Cert.LibPointScatter

/-- The reference's bin word is the bin word. -/
theorem bins_at (x0 : (⟨S64x32x8192, .f32⟩ : BufTy).Contents (Elt Ideal)) (j : S64x32x8192.Idx) :
    val_main_v6 (F := Ideal) x0 j = binWord (x0 j) := rfl

/-- "Add 29 to a negative bin index" leaves a non-negative bin word alone. -/
theorem wrapped_at (x0 : (⟨S64x32x8192, .f32⟩ : BufTy).Contents (Elt Ideal)) (j : S64x32x8192.Idx)
    (hb : 0 ≤ (binWord (x0 j)).toInt) : val_main_v27 (F := Ideal) x0 j = binWord (x0 j) := by
  have e : val_main_v27 (F := Ideal) x0 j
      = Scalar.select (IntOp.cmpi .slt (binWord (x0 j)) 0#32) (IntOp.addi (binWord (x0 j)) 29#32) (binWord (x0 j)) := rfl
  rw [e]
  exact wrap_nonneg _ _ hb

/-- The row word of update j is its row number. -/
theorem row_at (j : S64x32x8192.Idx) : val_main_v28 (F := Ideal) j = BitVec.ofNat 32 (j 0).val := by
  have e : val_main_v28 (F := Ideal) j
      = Scalar.select (IntOp.cmpi .slt (BitVec.ofNat 32 (j 0).val) 0#32)
          (IntOp.addi (BitVec.ofNat 32 (j 0).val) 64#32) (BitVec.ofNat 32 (j 0).val) := rfl
  rw [e]
  refine wrap_nonneg _ _ ?_
  rw [toInt_ofNat_small _ (by have : (j 0).val < 64 := (j 0).isLt; omega)]
  omega

/-- The column word of update j is its column number. -/
theorem col_at (j : S64x32x8192.Idx) : val_main_v29 (F := Ideal) j = BitVec.ofNat 32 (j 1).val := by
  have e : val_main_v29 (F := Ideal) j
      = Scalar.select (IntOp.cmpi .slt (BitVec.ofNat 32 (j 1).val) 0#32)
          (IntOp.addi (BitVec.ofNat 32 (j 1).val) 32#32) (BitVec.ofNat 32 (j 1).val) := rfl
  rw [e]
  refine wrap_nonneg _ _ ?_
  rw [toInt_ofNat_small _ (by have : (j 1).val < 32 := (j 1).isLt; omega)]
  omega

/-- The three words of update (e0, e1, e2): its row, its column, its normalised bin word. -/
theorem word0_at (x0 : (⟨S64x32x8192, .f32⟩ : BufTy).Contents (Elt Ideal)) (e0 : Fin 64) (e1 : Fin 32) (e2 : Fin 8192) :
    val_main_v33 (F := Ideal) x0 (ix4 e0 e1 e2 (0 : Fin 3)) = BitVec.ofNat 32 e0.val := by
  unfold val_main_v33
  refine Eq.trans (unitWords_at _ _ e0 e1 e2 (0 : Fin 3) _ rfl (by simp [widths])) ?_
  rw [val_main_v30_apply]
  exact row_at _

theorem word1_at (x0 : (⟨S64x32x8192, .f32⟩ : BufTy).Contents (Elt Ideal)) (e0 : Fin 64) (e1 : Fin 32) (e2 : Fin 8192) :
    val_main_v33 (F := Ideal) x0 (ix4 e0 e1 e2 (1 : Fin 3)) = BitVec.ofNat 32 e1.val := by
  unfold val_main_v33
  refine Eq.trans (unitWords_at _ _ e0 e1 e2 (1 : Fin 3) _ rfl (by simp [widths])) ?_
  rw [val_main_v31_apply]
  exact col_at _

theorem word2_at (x0 : (⟨S64x32x8192, .f32⟩ : BufTy).Contents (Elt Ideal)) (e0 : Fin 64) (e1 : Fin 32) (e2 : Fin 8192) :
    val_main_v33 (F := Ideal) x0 (ix4 e0 e1 e2 (2 : Fin 3)) = val_main_v27 (F := Ideal) x0 (ix3 e0 e1 e2) := by
  unfold val_main_v33
  refine Eq.trans (unitWords_at _ _ e0 e1 e2 (2 : Fin 3) _ rfl (by simp [widths])) ?_
  rw [val_main_v32_apply]
  refine congrArg (val_main_v27 (F := Ideal) x0) (funext fun a => Fin.ext ?_)
  match a with
  | ⟨0, _⟩ => rfl
  | ⟨1, _⟩ => rfl
  | ⟨2, _⟩ => rfl

/-- THE REFERENCE IS THE HISTOGRAM when every similarity is a real number ≥ −1. -/
theorem ref_eq (x0 : (⟨S64x32x8192, .f32⟩ : BufTy).Contents (Elt Ideal)) (x2 : (⟨S64x32x8192, .i1⟩ : BufTy).Contents (Elt Ideal))
    (hx : ∀ j : S64x32x8192.Idx, ∃ r : ℝ, x0 j = (r : EReal) ∧ -1 ≤ r) :
    val_main_v34 (F := Ideal) x0 x2 = G x0 x2 := by
  funext i
  obtain ⟨p, q, k, rfl⟩ : ∃ (p : Fin 64) (q : Fin 32) (k : Fin 29), i = ix3 p q k := ⟨i 0, i 1, i 2, eq_ix3 i⟩
  have hb : ∀ j : S64x32x8192.Idx, 0 ≤ (binWord (x0 j)).toInt := fun j => by
    obtain ⟨r, hr, h1⟩ := hx j
    rw [hr]
    exact binWord_nonneg r h1
  show Ideal.hostScatterAdd
      (pointDims 64 32 29 64 32 8192 Facts₀.scatter_S64x32x29_S64x32x8192x3_S64x32x8192_n_012_012_3_wf)
      (val_main_v12 (F := Ideal)) (val_main_v33 (F := Ideal) x0) (val_main_v7 (F := Ideal) x2) (ix3 p q k) = H x0 x2 p q k
  rw [pointScatterAdd_at]
  have h12 : val_main_v12 (F := Ideal) (ix3 p q k) = 0 := Ideal.ofBits_zero_f32
  rw [h12, zero_add]
  unfold H
  rw [← sum_fibre3 p q (fun e => if x2 e = 1#1 ∧ binWord (x0 e) = BitVec.ofNat 32 k.val then (1 : EReal) else 0)]
  refine Finset.sum_congr rfl fun e _ => ?_
  obtain ⟨e0, e1, e2, rfl⟩ : ∃ (e0 : Fin 64) (e1 : Fin 32) (e2 : Fin 8192), e = ix3 e0 e1 e2 := ⟨e 0, e 1, e 2, eq_ix3 e⟩
  have hc : (∀ a : Fin 3, (val_main_v33 (F := Ideal) x0 (ix4 e0 e1 e2 a)).toInt = (((ix3 p q k : S64x32x29.Idx) a).val : ℤ))
      ↔ (e0.val = p.val ∧ e1.val = q.val) ∧ binWord (x0 (ix3 e0 e1 e2)) = BitVec.ofNat 32 k.val := by
    constructor
    · intro h
      have h0 : (val_main_v33 (F := Ideal) x0 (ix4 e0 e1 e2 (0 : Fin 3))).toInt = (p.val : ℤ) := h 0
      have h1 : (val_main_v33 (F := Ideal) x0 (ix4 e0 e1 e2 (1 : Fin 3))).toInt = (q.val : ℤ) := h 1
      have h2 : (val_main_v33 (F := Ideal) x0 (ix4 e0 e1 e2 (2 : Fin 3))).toInt = (k.val : ℤ) := h 2
      rw [word0_at, toInt_ofNat_small _ (by have := e0.isLt; omega)] at h0
      rw [word1_at, toInt_ofNat_small _ (by have := e1.isLt; omega)] at h1
      rw [word2_at, wrapped_at _ _ (hb _)] at h2
      exact ⟨⟨by exact_mod_cast h0, by exact_mod_cast h1⟩, (toInt_eq_iff _ _ (by have := k.isLt; omega)).mp h2⟩
    · rintro ⟨⟨h0, h1⟩, h2⟩ a
      match a with
      | ⟨0, _⟩ =>
        show (val_main_v33 (F := Ideal) x0 (ix4 e0 e1 e2 (0 : Fin 3))).toInt = (p.val : ℤ)
        rw [word0_at, toInt_ofNat_small _ (by have := e0.isLt; omega)]
        exact_mod_cast h0
      | ⟨1, _⟩ =>
        show (val_main_v33 (F := Ideal) x0 (ix4 e0 e1 e2 (1 : Fin 3))).toInt = (q.val : ℤ)
        rw [word1_at, toInt_ofNat_small _ (by have := e1.isLt; omega)]
        exact_mod_cast h1
      | ⟨2, _⟩ =>
        show (val_main_v33 (F := Ideal) x0 (ix4 e0 e1 e2 (2 : Fin 3))).toInt = (k.val : ℤ)
        rw [word2_at, wrapped_at _ _ (hb _)]
        exact (toInt_eq_iff _ _ (by have := k.isLt; omega)).mpr h2
  have hw : val_main_v7 (F := Ideal) x2 (ix3 e0 e1 e2) = if x2 (ix3 e0 e1 e2) = 1#1 then 1 else 0 := bit_val _
  by_cases hpq : e0.val = p.val ∧ e1.val = q.val
  · rw [if_pos hpq]
    by_cases hk : binWord (x0 (ix3 e0 e1 e2)) = BitVec.ofNat 32 k.val
    · rw [if_pos (hc.mpr ⟨hpq, hk⟩), hw]
      by_cases hm : x2 (ix3 e0 e1 e2) = 1#1
      · rw [if_pos hm, if_pos ⟨hm, hk⟩]
      · rw [if_neg hm, if_neg (fun h => hm h.1)]
    · rw [if_neg (fun h => hk (hc.mp h).2), if_neg (fun h => hk h.2)]
  · rw [if_neg hpq, if_neg (fun h => hpq (hc.mp h).1)]

end Cert.ReferenceIdeal.Hist

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.Pre.lean ====
/-
  What the precondition says of the similarities, entry by entry.

  The precondition is the conjunction of two tests, each a comparison array reduced by `and` over every axis:
  all(|x| < +∞)  and  all(x ≥ −1).  If it is 1 then both reductions are 1, so every comparison is 1: every similarity
  is a real number, and that real number is at least −1.
-/
import proofs.«153554_j49108656062551_2_alg».proof.Pre_finite_inputs
import proofs.«153554_j49108656062551_2_alg».proof.Proof.Gen.Pre_finite_inputs
import proofs.«153554_j49108656062551_2_alg».proof.Proof.LibFiniteEntries
import Idealize.ShloMosaic.Lib.ReduceAll
import Idealize.ShloMosaic.Lib.Affine
import Idealize.ShloMosaic.Lib.ValueIdx

noncomputable section

namespace Cert.Hist.Pre

open Idealize.ShloMosaic Cert.Pre_finite_inputs

/-- The f32 pattern of −1 denotes −1. -/
theorem neg_one_f32 : Ideal.ofBits .f32 0xBF800000#32 = ((-1 : ℝ) : EReal) := by
  simp [Ideal.ofBits, Ideal.ieee, -EReal.coe_mul]; norm_num

/-- A comparison "y ≤ x" that came out 1 holds. -/
theorem le_of_cmp_oge (x y : EReal) (h : Ideal.cmp .oge x y = 1#1) : y ≤ x := by
  have h' : BitVec.ofBool (decide (y ≤ x)) = 1#1 := h
  by_contra hn
  rw [decide_eq_false hn] at h'
  exact absurd h' (by decide)

/-- UNDER THE PRECONDITION every similarity is a real number ≥ −1. -/
theorem entries_of_pre [Cert.Pre_finite_inputs.Facts] (a0 : FVec Ideal S64x32x8192 .f32) (a1 : IVec S64 32)
    (a2 : IVec S64x32x8192 1) (h : Cert.Pre_finite_inputs.fn (F := Ideal) a0 a1 a2 = fun _ => 1#1)
    (i : S64x32x8192.Idx) : ∃ r : ℝ, a0 i = (r : EReal) ∧ -1 ≤ r := by
  have h0 := congrFun h ValueIdx.ix0
  dsimp only [Cert.Pre_finite_inputs.fn] at h0
  obtain ⟨hfin, hge⟩ := IntOp.andi_eq_one.mp h0
  obtain ⟨r, hr⟩ := Cert.LibFiniteEntries.real_of_all a0 _ _ _ _ _ hfin i
  refine ⟨r, hr, ?_⟩
  have e := Host.reduce_andi_all _ _ _ _ _ hge i
  have e' : Ideal.cmp .oge (a0 i) (Ideal.ofBits .f32 0xBF800000#32) = 1#1 := e
  rw [neg_one_f32, hr] at e'
  exact_mod_cast le_of_cmp_oge _ _ e'

end Cert.Hist.Pre

end
-- ==== Proof.lean ====
/-
  A masked histogram with 29 bins: the kernel against a scatter-add, on the extended reals.

  Both programs send a similarity x to the bin word  bin(x) = trunc(((x + c) / 2) · 28)  (c = 1 + 84·2⁻²³, the f32
  number 1.00001 rounds to) and count, for every row (p, q) of a [64, 32, 8192] array and every bin k < 29, the
  positions of the row whose mask bit is set and whose bin word is k  (Proof/HistSpec.lean: `G`).

  The kernel, per block of 8 rows of the first axis, walks the last axis in 8 chunks of 1024; for a chunk it replaces
  the bin word by the sentinel 29 where the mask is clear, counts for each k the positions whose word is k, sets the 29
  count arrays side by side and adds the result to a carried [8, 32, 29] histogram, stored after the last chunk
  (Proof/KernelTrip.lean, KernelChunk.lean, KernelBlock.lean: the stored block, entry by entry; Proof/KernelValue.lean:
  the eight blocks tile the result array, and counting with a sentinel is counting under the mask).

  The reference adds the mask bit into a zero array at the entry named by the row, the column and the bin word, each
  index passed through "add the extent if negative".  A bin word in [−29, −1] would thereby be counted in bin
  word + 29, where the kernel counts nothing; the claim is stated for similarities ≥ −1, the lower end of the range the
  reference's own comment gives its input, for which the bin word is non-negative (x + c > 0) and the normalisation is
  the identity (Proof/RefValue.lean; Proof/Pre.lean reads the precondition back entry by entry).  Indices past the last
  bin are dropped by both programs, so no upper bound is needed.

  The three frames are the generated ones (the reference's is its generated run with the result dropped); nothing was
  rewritten by the idealisation, so `preserves` is trivial.
-/
import proofs.«153554_j49108656062551_2_alg».proof.Defs
import proofs.«153554_j49108656062551_2_alg».proof.Proof.Gen.Kernel
import proofs.«153554_j49108656062551_2_alg».proof.Proof.Gen.Kernel.Skeleton
import proofs.«153554_j49108656062551_2_alg».proof.Proof.Gen.Kernel.Loops
import proofs.«153554_j49108656062551_2_alg».proof.Proof.Gen.Kernel.Launch
import proofs.«153554_j49108656062551_2_alg».proof.Proof.Gen.Kernel.Points
import proofs.«153554_j49108656062551_2_alg».proof.Proof.Gen.Kernel.Frame
import proofs.«153554_j49108656062551_2_alg».proof.Proof.Gen.KernelIdeal
import proofs.«153554_j49108656062551_2_alg».proof.Proof.Gen.KernelIdeal.Skeleton
import proofs.«153554_j49108656062551_2_alg».proof.Proof.Gen.KernelIdeal.Loops
import proofs.«153554_j49108656062551_2_alg».proof.Proof.Gen.KernelIdeal.Launch
import proofs.«153554_j49108656062551_2_alg».proof.Proof.Gen.KernelIdeal.Points
import proofs.«153554_j49108656062551_2_alg».proof.Proof.Gen.KernelIdeal.Frame
import proofs.«153554_j49108656062551_2_alg».proof.Proof.Gen.ReferenceIdeal
import proofs.«153554_j49108656062551_2_alg».proof.Proof.Gen.Pre_finite_inputs
import proofs.«153554_j49108656062551_2_alg».proof.Proof.Gen.KernelIdeal.Value
import proofs.«153554_j49108656062551_2_alg».proof.Proof.Gen.ReferenceIdeal.Run
import proofs.«153554_j49108656062551_2_alg».proof.Proof.Gen.ReferenceIdeal.Read
import proofs.«153554_j49108656062551_2_alg».proof.Proof.KernelValue
import proofs.«153554_j49108656062551_2_alg».proof.Proof.RefValue
import proofs.«153554_j49108656062551_2_alg».proof.Proof.Pre
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the histogram of the similarities and the mask: the kernel for any input, the reference
    for similarities that are real numbers ≥ −1, which the precondition gives. -/
theorem algebraic : Cert.algebraic_KernelIdeal_ReferenceIdeal := by
  intro m ρ m' ρ' hpre hagree
  refine ⟨fun c => Cert.Hist.G (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Hist.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v34_eq _ _).trans ?_
  rw [(hagree c).1, (hagree c).2.2]
  exact Cert.ReferenceIdeal.Hist.ref_eq _ _ (Cert.Hist.Pre.entries_of_pre _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
